-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2049 : Shape := ⟨2, ![8192, 2049]⟩
abbrev S4096x2049 : Shape := ⟨2, ![4096, 2049]⟩
abbrev S_ : Shape := ⟨0, ![]⟩

class Facts : Prop where
  bcast_S_S8192x2049 : S_.BroadcastsInDim S8192x2049 (![] : Fin 0 → Fin S8192x2049.rank)
  reducesTo_S8192x2049_S_d0_1 : S8192x2049.ReducesTo [0, 1] S_
  h_S_ : 0 < S_.numel
  bcast_S_S4096x2049 : S_.BroadcastsInDim S4096x2049 (![] : Fin 0 → Fin S4096x2049.rank)
  reducesTo_S4096x2049_S_d0_1 : S4096x2049.ReducesTo [0, 1] S_

variable [Facts]

def fn {F : FTy → Type} [FloatOps F] (main_arg0 : FVec F S8192x2049 .f32) (main_arg1 : FVec F S4096x2049 .f32) (main_arg2 : FVec F S4096x2049 .f32) : IVec S_ 1 :=
  let main_v0 : FVec F S8192x2049 .f32 := Host.absf main_arg0
  let main_cst : FVec F S_ .f32 := constant S_ .f32 0x7F800000#32
  let main_v1 : FVec F S8192x2049 .f32 := broadcastInDim S8192x2049 ![] bcast_S_S8192x2049 main_cst
  let main_v2 : IVec S8192x2049 1 := cmpf .olt main_v0 main_v1
  let main_c : IVec S_ 1 := constantI S_ 1 1#1
  let main_v3 : IVec S_ 1 := (fun x v => Host.reduce IntOp.andi x v reducesTo_S8192x2049_S_d0_1 h_S_) main_v2 main_c
  let main_v4 : FVec F S4096x2049 .f32 := Host.absf main_arg1
  let main_cst_0 : FVec F S_ .f32 := constant S_ .f32 0x7F800000#32
  let main_v5 : FVec F S4096x2049 .f32 := broadcastInDim S4096x2049 ![] bcast_S_S4096x2049 main_cst_0
  let main_v6 : IVec S4096x2049 1 := cmpf .olt main_v4 main_v5
  let main_c_1 : IVec S_ 1 := constantI S_ 1 1#1
  let main_v7 : IVec S_ 1 := (fun x v => Host.reduce IntOp.andi x v reducesTo_S4096x2049_S_d0_1 h_S_) main_v6 main_c_1
  let main_v8 : IVec S_ 1 := andi main_v3 main_v7
  let main_v9 : FVec F S4096x2049 .f32 := Host.absf main_arg2
  let main_cst_2 : FVec F S_ .f32 := constant S_ .f32 0x7F800000#32
  let main_v10 : FVec F S4096x2049 .f32 := broadcastInDim S4096x2049 ![] bcast_S_S4096x2049 main_cst_2
  let main_v11 : IVec S4096x2049 1 := cmpf .olt main_v9 main_v10
  let main_c_3 : IVec S_ 1 := constantI S_ 1 1#1
  let main_v12 : IVec S_ 1 := (fun x v => Host.reduce IntOp.andi x v reducesTo_S4096x2049_S_d0_1 h_S_) main_v11 main_c_3
  let main_v13 : IVec S_ 1 := andi main_v8 main_v12
  main_v13
-- ==== Kernel.lean ====
abbrev S8192x2049 : Shape := ⟨2, ![8192, 2049]⟩
abbrev S4096x2049 : Shape := ⟨2, ![4096, 2049]⟩
abbrev S_ : Shape := ⟨0, ![]⟩
abbrev S8192x2176 : Shape := ⟨2, ![8192, 2176]⟩
abbrev S4096x2176 : Shape := ⟨2, ![4096, 2176]⟩
abbrev S8192x4096 : Shape := ⟨2, ![8192, 4096]⟩
abbrev S512x2176 : Shape := ⟨2, ![512, 2176]⟩
abbrev S512x512 : Shape := ⟨2, ![512, 512]⟩

abbrev nBuf : Space → Nat
  | .hbm => 12
  | .vmem => 6
  | .smem => 0
  | _ => 0

abbrev bufTy : (tb : Table) → Fin (tcTables nBuf tb) → BufTy
  | .hbm, ⟨0, _⟩ => ⟨S8192x2049, .f32⟩
  | .hbm, ⟨1, _⟩ => ⟨S4096x2049, .f32⟩
  | .hbm, ⟨2, _⟩ => ⟨S4096x2049, .f32⟩
  | .hbm, ⟨3, _⟩ => ⟨S_, .i32⟩
  | .hbm, ⟨4, _⟩ => ⟨S_, .f32⟩
  | .hbm, ⟨5, _⟩ => ⟨S8192x2176, .f32⟩
  | .hbm, ⟨6, _⟩ => ⟨S8192x2176, .bf16⟩
  | .hbm, ⟨7, _⟩ => ⟨S_, .i32⟩
  | .hbm, ⟨8, _⟩ => ⟨S_, .f32⟩
  | .hbm, ⟨9, _⟩ => ⟨S4096x2176, .f32⟩
  | .hbm, ⟨10, _⟩ => ⟨S4096x2176, .bf16⟩
  | .hbm, ⟨11, _⟩ => ⟨S8192x4096, .f32⟩
  | .local _ .vmem, ⟨0, _⟩ => ⟨S512x2176, .bf16⟩
  | .local _ .vmem, ⟨1, _⟩ => ⟨S512x2176, .bf16⟩
  | .local _ .vmem, ⟨2, _⟩ => ⟨S512x2176, .bf16⟩
  | .local _ .vmem, ⟨3, _⟩ => ⟨S512x2176, .bf16⟩
  | .local _ .vmem, ⟨4, _⟩ => ⟨S512x512, .f32⟩
  | .local _ .vmem, ⟨5, _⟩ => ⟨S512x512, .f32⟩
  | _, _ => ⟨S8192x2049, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8192x2049_S8192x2176_000_01270 : S8192x2049.Pads (![0, 0] : Fin 2 → Nat) ![0, 127] ![0, 0] S8192x2176
  h_S_ : 0 < S_.numel
  bitsLt_bf16_f32 : FTy.bits .bf16 < FTy.bits .f32
  pads_S4096x2049_S4096x2176_000_01270 : S4096x2049.Pads (![0, 0] : Fin 2 → Nat) ![0, 127] ![0, 0] S4096x2176
  inb_S512x2176_S512x2176_0_0 : ∀ a, (![0, 0] : Fin 2 → Nat) a + S512x2176.size a ≤ S512x2176.size a
  h_S512x2176 : 0 < S512x2176.numel
  shapeCasts_S512x2176_S512x2176 : S512x2176.ShapeCasts S512x2176
  inb_S512x512_S512x512_0_0 : ∀ a, (![0, 0] : Fin 2 → Nat) a + S512x512.size a ≤ S512x512.size a
  h_S512x512 : 0 < S512x512.numel
  dot_S512x2176_S512x2176_S512x512_1_1_0_0_n_n_wf : DotDims.WF S512x2176 S512x2176 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2176.size a ≤ S8192x2176.size a
  hwx0_0 : ∀ i : grid0.Coords, EltTy.bits .bf16 = 32 ∨ (Rect.block (s := S8192x2176) S512x2176.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2176.size a ≤ S4096x2176.size a
  hwx0_1 : ∀ i : grid0.Coords, EltTy.bits .bf16 = 32 ∨ (Rect.block (s := S4096x2176) S512x2176.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def dot_S512x2176_S512x2176_S512x512_1_1_0_0_n_n : DotDims S512x2176 S512x2176 S512x512 where
  lhsContracting := [1]
  rhsContracting := [1]
  lhsNonContracting := [0]
  rhsNonContracting := [0]
  lhsBatch := []
  rhsBatch := []
  wf := dot_S512x2176_S512x2176_S512x512_1_1_0_0_n_n_wf

abbrev win0_0 : Pipeline.Window sig grid0 :=
  Pipeline.Window.ofSpec (Memref.whole main_v1) S512x2176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2176.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2049 : Shape := ⟨2, ![8192, 2049]⟩
abbrev S4096x2049 : Shape := ⟨2, ![4096, 2049]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2049, .f32⟩
  | .hbm, ⟨1, _⟩ => ⟨S4096x2049, .f32⟩
  | .hbm, ⟨2, _⟩ => ⟨S4096x2049, .f32⟩
  | .hbm, ⟨3, _⟩ => ⟨S8192x4096, .f32⟩
  | _, _ => ⟨S8192x2049, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S8192x2049_S4096x2049_S8192x4096_1_1_0_0_n_n_wf : DotDims.WF S8192x2049 S4096x2049 S8192x4096 [1] [1] [0] [0] [] []

variable [Facts₀]

def dot_S8192x2049_S4096x2049_S8192x4096_1_1_0_0_n_n : DotDims S8192x2049 S4096x2049 S8192x4096 where
  lhsContracting := [1]
  rhsContracting := [1]
  lhsNonContracting := [0]
  rhsNonContracting := [0]
  lhsBatch := []
  rhsBatch := []
  wf := dot_S8192x2049_S4096x2049_S8192x4096_1_1_0_0_n_n_wf

class Facts : Prop extends Facts₀ where

variable [Facts]
-- ==== Proof.RowDot.lean ====
/-
  Rows against rows. For an array `x` of 8192 rows and an array `f` of 4096 rows, both of 2049 columns of extended
  reals, `energies x f` is the 8192 × 4096 array whose entry (r, c) is the sum over the 2049 columns k of
  x[r, k] · f[c, k]: every row of `x` against every row of `f`.

  Widening a row by columns of zeros does not change such a sum: a product with a zero factor is zero on the
  extended reals (also against an infinite factor), so the terms of the added columns vanish and the terms of the
  first 2049 columns are the old ones (`sum_widened`). Nothing here needs the entries to be finite: only that
  addition of extended reals is commutative and associative and that 0 · y = 0.
-/
import Idealize.ShloMosaic.PureOps.Ideal
import Idealize.ShloMosaic.Lib.ValueIdx

noncomputable section

namespace Cert.RowDot

open Idealize.ShloMosaic Idealize.ShloMosaic.ValueIdx

/-- Entry (r, c): row r of `x` against row c of `f`, summed over the 2049 columns. -/
def energies (x : (⟨2, ![8192, 2049]⟩ : Shape).Idx → EReal) (f : (⟨2, ![4096, 2049]⟩ : Shape).Idx → EReal) :
    (⟨2, ![8192, 4096]⟩ : Shape).Idx → EReal :=
  fun i => ∑ k : Fin 2049, x (ix2 (i 0) k) * f (ix2 (i 1) k)

/-- The same sum over rows widened to 2176 columns. -/
def energiesWide (x : (⟨2, ![8192, 2176]⟩ : Shape).Idx → EReal) (f : (⟨2, ![4096, 2176]⟩ : Shape).Idx → EReal) :
    (⟨2, ![8192, 4096]⟩ : Shape).Idx → EReal :=
  fun i => ∑ k : Fin 2176, x (ix2 (i 0) k) * f (ix2 (i 1) k)

/-- A row of 2049 entries widened to 2176 by zeros. -/
def widen (u : Fin 2049 → EReal) : Fin 2176 → EReal :=
  fun k => if h : k.val < 2049 then u ⟨k.val, h⟩ else 0

/-- The sum of products of two widened rows is the sum over the first 2049 columns: in the 127 added columns
    both factors are zero. -/
theorem sum_widened (u v : Fin 2049 → EReal) :
    ∑ k : Fin 2176, widen u k * widen v k = ∑ k : Fin 2049, u k * v k := by
  show ∑ k : Fin (2049 + 127), widen u k * widen v k = _
  rw [Fin.sum_univ_add]
  have hlow : ∀ k : Fin 2049, widen u (Fin.castAdd 127 k) * widen v (Fin.castAdd 127 k) = u k * v k := fun k => by
    unfold widen
    rw [dif_pos (show (Fin.castAdd 127 k).val < 2049 from k.isLt), dif_pos (show (Fin.castAdd 127 k).val < 2049 from k.isLt)]
    rfl
  have hhigh : ∀ j : Fin 127, widen u (Fin.natAdd 2049 j) * widen v (Fin.natAdd 2049 j) = 0 := fun j => by
    unfold widen
    rw [dif_neg (show ¬ (Fin.natAdd 2049 j).val < 2049 from by simp [Fin.natAdd]), zero_mul]
  rw [Finset.sum_congr rfl fun k _ => hlow k, Finset.sum_congr rfl fun j _ => hhigh j, Finset.sum_const_zero, add_zero]

end Cert.RowDot

end
-- ==== Proof.KernelBlock.lean ====
/-
  One grid point's arithmetic, read at an entry. The body multiplies a 512 × 2176 block `a` (512 rows of the widened
  `x`) with a 512 × 2176 block `b` (512 rows of the widened filters), contracting the two column axes, into a zero
  accumulator. At the extended reals the product into the zero accumulator is the plain sum, so entry (p, q) of
  the 512 × 512 result is the sum over the 2176 columns k of a[p, k] · b[q, k]: row p of `a` against row q of `b`.
  The two shape casts in the body are between equal shapes and change nothing.
-/
import proofs.«111513_j77386720739464_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The left operand's index at result entry `j` and contraction position `k`: row `j 0`, column `k`. -/
theorem lhs_at (j : S512x512.Idx) (k : Fin 2176) :
    dot_S512x2176_S512x2176_S512x512_1_1_0_0_n_n.lhsIdx j
      ((contrEquiv1 dot_S512x2176_S512x2176_S512x512_1_1_0_0_n_n 2176 rfl rfl).symm k)
      = (ix2 (⟨(j 0).val, (j 0).isLt⟩ : Fin 512) k : S512x2176.Idx) := by
  have hk := contrEquiv1_symm_val dot_S512x2176_S512x2176_S512x512_1_1_0_0_n_n 2176 rfl rfl k
  funext a
  apply Fin.ext
  match a with
  | ⟨0, _⟩ =>
    show (dot_S512x2176_S512x2176_S512x512_1_1_0_0_n_n.lhsIdx j _ 0).val = (j 0).val
    unfold DotDims.lhsIdx
    rw [dif_neg (show ¬(0 : Fin S512x2176.rank) ∈ dot_S512x2176_S512x2176_S512x512_1_1_0_0_n_n.lhsBatch by decide),
      dif_pos (show (0 : Fin S512x2176.rank) ∈ dot_S512x2176_S512x2176_S512x512_1_1_0_0_n_n.lhsNonContracting by decide)]
    rfl
  | ⟨1, _⟩ =>
    exact (dot_S512x2176_S512x2176_S512x512_1_1_0_0_n_n.lhsIdx_val_of_single rfl j _).trans hk

/-- The right operand's index at result entry `j` and contraction position `k`: row `j 1`, column `k`. -/
theorem rhs_at (j : S512x512.Idx) (k : Fin 2176) :
    dot_S512x2176_S512x2176_S512x512_1_1_0_0_n_n.rhsIdx j
      ((contrEquiv1 dot_S512x2176_S512x2176_S512x512_1_1_0_0_n_n 2176 rfl rfl).symm k)
      = (ix2 (⟨(j 1).val, (j 1).isLt⟩ : Fin 512) k : S512x2176.Idx) := by
  have hk := contrEquiv1_symm_val dot_S512x2176_S512x2176_S512x512_1_1_0_0_n_n 2176 rfl rfl k
  funext a
  apply Fin.ext
  match a with
  | ⟨0, _⟩ =>
    show (dot_S512x2176_S512x2176_S512x512_1_1_0_0_n_n.rhsIdx j _ 0).val = (j 1).val
    unfold DotDims.rhsIdx
    rw [dif_neg (show ¬(0 : Fin S512x2176.rank) ∈ dot_S512x2176_S512x2176_S512x512_1_1_0_0_n_n.rhsBatch by decide),
      dif_pos (show (0 : Fin S512x2176.rank) ∈ dot_S512x2176_S512x2176_S512x512_1_1_0_0_n_n.rhsNonContracting by decide)]
    rfl
  | ⟨1, _⟩ =>
    exact (dot_S512x2176_S512x2176_S512x512_1_1_0_0_n_n.rhsIdx_val_of_single rfl j _).trans hk

/-- Entry `j` of the body's result: row `j 0` of the first block against row `j 1` of the second, over the 2176 columns. -/
theorem pay_apply (a b : FVec Ideal S512x2176 .bf16) (j : S512x512.Idx) :
    k0_pay1 (F := Ideal) a b j
      = ∑ k : Fin 2176, a (ix2 (⟨(j 0).val, (j 0).isLt⟩ : Fin 512) k) * b (ix2 (⟨(j 1).val, (j 1).isLt⟩ : Fin 512) k) := by
  unfold k0_pay1
  dsimp only
  rw [shapeCast_self, shapeCast_self]
  refine (Ideal.matmul_constant_zero_apply dot_S512x2176_S512x2176_S512x512_1_1_0_0_n_n none a b j).trans ?_
  rw [← Equiv.sum_comp (contrEquiv1 dot_S512x2176_S512x2176_S512x512_1_1_0_0_n_n 2176 rfl rfl).symm]
  refine Finset.sum_congr rfl fun k _ => ?_
  rw [lhs_at, rhs_at]

end Cert.KernelIdeal.Block

end
-- ==== Proof.KernelArray.lean ====
/-
  From blocks to the array. The grid has 16 × 8 points; point (i, j) reads rows 512·i … 512·i + 511 of the widened
  `x` (all 2176 columns) and rows 512·j … 512·j + 511 of the widened filters, and writes the 512 × 512 block of
  the result at block row i, block column j. Entry (p, q) of what it writes is row p of the first block against
  row q of the second, which is row 512·i + p of the widened `x` against row 512·j + q of the widened filters:
  the entry (512·i + p, 512·j + q) of `energiesWide`. The 128 blocks tile the 8192 × 4096 result (entry (r, s) lies
  in the block of point (r / 512, s / 512)), so after the run the result array is `energiesWide` of the two widened
  arrays as the region finds them.
-/
import proofs.«111513_j77386720739464_1_alg».proof.Proof.Gen.KernelIdeal.Value
import proofs.«111513_j77386720739464_1_alg».proof.Proof.RowDot
import proofs.«111513_j77386720739464_1_alg».proof.Proof.KernelBlock

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The three index maps over the grid: the first operand's block row is the result's block row, the second operand's
    block row is the result's block column, both operands take all columns (block column 0), and the result's block
    indices stay below 16 and 8. -/
theorem index_maps : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 7 :=
  (by decide +kernel : ∀ t : Fin grid0.N, _)

/-- Every block (block row below 16, block column below 8) of the result is some point's. -/
theorem index_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- What point `t` writes back is block `t` of `energiesWide` of the two widened arrays as the region finds them. -/
theorem flushed_eq (c : Dev nD) (t : Fin cfg0.N) :
    (dats m 0 c).flushed 2 t
      = ((cfg0.win 2).blk t).view.read (Elt Ideal) (Cert.RowDot.energiesWide (V m c main_v1) (V m c main_v3)) := by
  rw [Value.flushed2]
  unfold out0_2
  rw [View.canon_unit_zero origin_zero]
  simp only [View.ld_unit_zero (S := S512x2176) origin_zero]
  obtain ⟨e0, e1, e2, e3, -, -⟩ := index_maps t
  funext j
  show k0_pay1 (iblk m c 0 t) (iblk m c 1 t) j
    = Cert.RowDot.energiesWide (V m c main_v1) (V m c main_v3) (((cfg0.win 2).blk t).view.emb j)
  refine (Block.pay_apply _ _ j).trans ?_
  unfold Cert.RowDot.energiesWide
  refine Finset.sum_congr rfl fun k _ => ?_
  have hl : ((cfg0.win 0).blk t).view.emb (ix2 (⟨(j 0).val, (j 0).isLt⟩ : Fin 512) k)
      = ix2 ((((cfg0.win 2).blk t).view.emb j) 0) k := by
    funext a; apply Fin.ext
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 2176 + 1 * k.val = k.val
      omega
  have hr : ((cfg0.win 1).blk t).view.emb (ix2 (⟨(j 1).val, (j 1).isLt⟩ : Fin 512) k)
      = ix2 ((((cfg0.win 2).blk t).view.emb j) 1) k := by
    funext a; apply Fin.ext
    match a with
    | ⟨0, _⟩ =>
      show win0_1.index t (0 : Fin 2) * 512 + 1 * (j 1).val = win0_2.index t (1 : Fin 2) * 512 + 1 * (j 1).val
      omega
    | ⟨1, _⟩ =>
      show win0_1.index t (1 : Fin 2) * 2176 + 1 * k.val = k.val
      omega
  have h1 : iblk m c 0 t (ix2 (⟨(j 0).val, (j 0).isLt⟩ : Fin 512) k)
      = V m c main_v1 (ix2 ((((cfg0.win 2).blk t).view.emb j) 0) k) :=
    congrArg (V m c main_v1) hl
  have h2 : iblk m c 1 t (ix2 (⟨(j 1).val, (j 1).isLt⟩ : Fin 512) k)
      = V m c main_v3 (ix2 ((((cfg0.win 2).blk t).view.emb j) 1) k) :=
    congrArg (V m c main_v3) hr
  exact congrArg₂ (fun a b : EReal => a * b) h1 h2

/-- An entry of the result is in point `t`'s block iff each coordinate is in the block's range on its axis. -/
theorem mem_block (t : Fin cfg0.N) (i : S8192x4096.Idx) :
    i ∈ ((cfg0.win 2).blk t).view.set
      ↔ ∀ a : Fin 2, win0_2.index t a * S512x512.size a ≤ (i a).val
          ∧ (i a).val < win0_2.index t a * S512x512.size a + S512x512.size a := by
  show i ∈ ((View.whole main_v4).slice (win0_2.rect t)).set ↔ _
  rw [View.set_slice_whole, Rect.mem_set_unit]
  exact Iff.rfl

/-- Every entry (r, s) of the result is in the block of the point with block row r / 512 and block column s / 512. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- The result array after the run: `energiesWide` of the two widened arrays as the region finds them. -/
theorem final (c : Dev nD) :
    (dats m 0 c).arrAt 2 cfg0.N = Cert.RowDot.energiesWide (V m c main_v1) (V m c main_v3) :=
  (dats m 0 c).arrAt_eq_of_cover 2 _ (fun t _ => flushed_eq m c t) covered

end Cert.KernelIdeal.ArrayValue

end
-- ==== Proof.KernelHost.lean ====
/-
  The two arrays the region finds. Before the region the program widens `x` (8192 × 2049) and the filters
  (4096 × 2049) to 2176 columns with the integer zero converted to a float, which is the real 0, and changes the
  float format, which is the identity on the extended reals. So the widened array read at row r, column k is the
  argument's entry (r, k) for k < 2049 and 0 for the 127 columns after: row r of the widened array is row r of
  the argument widened by zeros (`RowDot.widen`).
-/
import proofs.«111513_j77386720739464_1_alg».proof.Proof.Gen.KernelIdeal.Frame
import proofs.«111513_j77386720739464_1_alg».proof.Proof.RowDot
import Idealize.ShloMosaic.Lib.StableHlo.Run
import Idealize.ShloMosaic.Lib.KernelVsHost
import Idealize.ShloMosaic.PureOps.Ideal

noncomputable section

namespace Cert.KernelIdeal.Widened

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The padding value: the integer zero converted to a float is the real 0. -/
theorem pad_value (i : S_.Idx) : (sitofp (F := Ideal) .f32 (constantI S_ 32 0#32) : FVec Ideal S_ .f32) i = 0 := by
  show ((((0#32 : BitVec 32).toInt : ℤ) : ℝ) : EReal) = 0
  simp

/-- An array of 2049 columns padded on the right to 2176 columns with the real 0, read at row `r`, column `k`:
    the array's entry for k < 2049, and 0 after. -/
theorem pad_row_x (x : S8192x2049.Idx → EReal) (r : Fin 8192) (k : Fin 2176) :
    pad S8192x2176 ![0, 0] ![0, 127] ![0, 0] x (sitofp (F := Ideal) .f32 (constantI S_ 32 0#32))
        pads_S8192x2049_S8192x2176_000_01270 h_S_ (ix2 r k)
      = Cert.RowDot.widen (fun k' => x (ix2 r k')) k := by
  unfold Cert.RowDot.widen
  by_cases h : k.val < 2049
  · rw [dif_pos h]
    refine pad_apply_of_inside _ _ _ x _ pads_S8192x2049_S8192x2176_000_01270 h_S_ (ix2 r k) (ix2 r ⟨k.val, h⟩) fun a => ?_
    match a with
    | ⟨0, _⟩ => show r.val = 0 + r.val * (0 + 1); omega
    | ⟨1, _⟩ => show k.val = 0 + k.val * (0 + 1); omega
  · rw [dif_neg h]
    refine (pad_apply_of_not_inside _ _ _ x _ pads_S8192x2049_S8192x2176_000_01270 h_S_ (ix2 r k) (1 : Fin 2) ?_).trans (pad_value _)
    show ¬(0 ≤ k.val ∧ (k.val - 0) % (0 + 1) = 0 ∧ (k.val - 0) / (0 + 1) < 2049)
    omega

/-- The same for the filters' 4096 rows. -/
theorem pad_row_f (x : S4096x2049.Idx → EReal) (r : Fin 4096) (k : Fin 2176) :
    pad S4096x2176 ![0, 0] ![0, 127] ![0, 0] x (sitofp (F := Ideal) .f32 (constantI S_ 32 0#32))
        pads_S4096x2049_S4096x2176_000_01270 h_S_ (ix2 r k)
      = Cert.RowDot.widen (fun k' => x (ix2 r k')) k := by
  unfold Cert.RowDot.widen
  by_cases h : k.val < 2049
  · rw [dif_pos h]
    refine pad_apply_of_inside _ _ _ x _ pads_S4096x2049_S4096x2176_000_01270 h_S_ (ix2 r k) (ix2 r ⟨k.val, h⟩) fun a => ?_
    match a with
    | ⟨0, _⟩ => show r.val = 0 + r.val * (0 + 1); omega
    | ⟨1, _⟩ => show k.val = 0 + k.val * (0 + 1); omega
  · rw [dif_neg h]
    refine (pad_apply_of_not_inside _ _ _ x _ pads_S4096x2049_S4096x2176_000_01270 h_S_ (ix2 r k) (1 : Fin 2) ?_).trans (pad_value _)
    show ¬(0 ≤ k.val ∧ (k.val - 0) % (0 + 1) = 0 ∧ (k.val - 0) / (0 + 1) < 2049)
    omega

/-- The first operand's array as the region finds it: `x` widened, in the other float format. -/
theorem found_x (c : Dev nD) :
    (V m c main_v1 : S8192x2176.Idx → EReal)
      = truncf .bf16 (pad S8192x2176 ![0, 0] ![0, 127] ![0, 0] (m ((c : Thread nD τ).loc main_arg0))
          (sitofp (F := Ideal) .f32 (constantI S_ 32 0#32)) pads_S8192x2049_S8192x2176_000_01270 h_S_) bitsLt_bf16_f32 := by
  show StableHlo.after (List.flatten [hostOps0, hostOps0_1, hostOps0_2, hostOps0_3, hostOps0_4]) (fun b => m (c, b))
    (Proc.devRef .tc main_v1) = _
  simp only [Gen.hostOps0, Gen.hostOps0_1, Gen.hostOps0_2, Gen.hostOps0_3, Gen.hostOps0_4, List.flatten_cons, List.flatten_nil,
    List.append_nil, List.cons_append, List.nil_append]
  after_results
  rfl

/-- The second operand's array as the region finds it: the filters widened, in the other float format. -/
theorem found_f (c : Dev nD) :
    (V m c main_v3 : S4096x2176.Idx → EReal)
      = truncf .bf16 (pad S4096x2176 ![0, 0] ![0, 127] ![0, 0] (m ((c : Thread nD τ).loc main_arg1))
          (sitofp (F := Ideal) .f32 (constantI S_ 32 0#32)) pads_S4096x2049_S4096x2176_000_01270 h_S_) bitsLt_bf16_f32 := by
  show StableHlo.after (List.flatten [hostOps0, hostOps0_1, hostOps0_2, hostOps0_3, hostOps0_4]) (fun b => m (c, b))
    (Proc.devRef .tc main_v3) = _
  simp only [Gen.hostOps0, Gen.hostOps0_1, Gen.hostOps0_2, Gen.hostOps0_3, Gen.hostOps0_4, List.flatten_cons, List.flatten_nil,
    List.append_nil, List.cons_append, List.nil_append]
  after_results
  rfl

/-- Row `r` of the first operand's array, as the region finds it, is row `r` of `x` widened by zeros. -/
theorem found_x_apply (c : Dev nD) (r : Fin 8192) (k : Fin 2176) :
    (V m c main_v1 : S8192x2176.Idx → EReal) (ix2 r k)
      = Cert.RowDot.widen (fun k' => (m ((c : Thread nD τ).loc main_arg0) : S8192x2049.Idx → EReal) (ix2 r k')) k := by
  rw [found_x]
  exact pad_row_x _ r k

/-- Row `r` of the second operand's array, as the region finds it, is row `r` of the filters widened by zeros. -/
theorem found_f_apply (c : Dev nD) (r : Fin 4096) (k : Fin 2176) :
    (V m c main_v3 : S4096x2176.Idx → EReal) (ix2 r k)
      = Cert.RowDot.widen (fun k' => (m ((c : Thread nD τ).loc main_arg1) : S4096x2049.Idx → EReal) (ix2 r k')) k := by
  rw [found_f]
  exact pad_row_f _ r k

end Cert.KernelIdeal.Widened

end
-- ==== Proof.KernelValue.lean ====
/-
  The kernel's result as one function of its arguments. After the run the result array is `energiesWide` of the two
  widened arrays (the blocks tile it); each row of a widened array is the argument's row widened by zeros, and zero
  columns add nothing to a sum of products; so the result array is `energies x f`: entry (r, c) is row r of `x`
  against row c of the filters over the 2049 columns. The third argument is never read.
-/
import proofs.«111513_j77386720739464_1_alg».proof.Proof.KernelArray
import proofs.«111513_j77386720739464_1_alg».proof.Proof.KernelHost

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ) (ρ : Dev nD → PrngReg)

/-- Over the widened arrays the region finds, the 2176-column sums are the 2049-column sums over the arguments. -/
theorem wide_eq (c : Dev nD) :
    Cert.RowDot.energiesWide (V m c main_v1) (V m c main_v3)
      = Cert.RowDot.energies (m ((c : Thread nD τ).loc main_arg0)) (m ((c : Thread nD τ).loc main_arg1)) := by
  funext i
  unfold Cert.RowDot.energiesWide Cert.RowDot.energies
  refine (Finset.sum_congr rfl fun k _ => ?_).trans
    (Cert.RowDot.sum_widened
      (fun k' => (m ((c : Thread nD τ).loc main_arg0) : S8192x2049.Idx → EReal) (ix2 (i 0) k'))
      (fun k' => (m ((c : Thread nD τ).loc main_arg1) : S4096x2049.Idx → EReal) (ix2 (i 1) k')))
  exact congrArg₂ (fun a b : EReal => a * b) (Widened.found_x_apply m c (i 0) k) (Widened.found_f_apply m c (i 1) k)

/-- Every weakly fair execution of the kernel's program terminates with the result array at `energies` of the first
    two arguments, and the arguments unchanged. -/
theorem run : θ_run defs (onTc (τ := τ) (main (F := Ideal))) ⟨m, fun _ => 0, ρ⟩ fun r => ∀ c : Dev nD,
      r.2.mem ((c : Thread nD τ).loc main_v4)
        = Cert.RowDot.energies (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (wide_eq m c)), (h c).2⟩)
    (Value.run_blocks m ρ)

end Cert.KernelIdeal.ArrayValue

end
-- ==== Proof.RefValue.lean ====
/-
  The reference at an entry. The reference contracts the column axis of `x` (8192 × 2049) with the column axis of
  the filters (4096 × 2049); at the extended reals that product's entry (r, c) is the plain sum over the 2049 columns
  k of x[r, k] · f[c, k], which is `energies x f` entry by entry.
-/
import proofs.«111513_j77386720739464_1_alg».proof.Proof.Gen.ReferenceIdeal.Read
import proofs.«111513_j77386720739464_1_alg».proof.Proof.RowDot

noncomputable section

namespace Cert.ReferenceIdeal.RefValue

open Cert.ReferenceIdeal Cert.ReferenceIdeal.Gen Idealize.ShloMosaic Idealize.ShloMosaic.ValueIdx

/-- The reference's result term is `energies` of its two operands. -/
theorem result_eq (x : FVec Ideal S8192x2049 .f32) (f : FVec Ideal S4096x2049 .f32) :
    Host.dotGeneral (F := Ideal) dot_S8192x2049_S4096x2049_S8192x4096_1_1_0_0_n_n none x f = Cert.RowDot.energies x f := by
  funext i
  refine (Read.val_main_v0_apply x f i).trans ?_
  unfold Cert.RowDot.energies
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 (i 1) k :=
    funext fun a => Fin.ext (by match a with | ⟨0, _⟩ => rfl | ⟨1, _⟩ => rfl)
  exact congrArg₂ (· * ·) (congrArg x el) (congrArg f er)

end Cert.ReferenceIdeal.RefValue

end
-- ==== Proof.lean ====
/-
  The kernel computes energies = x · filters_realᵀ block by block: it widens `x` (8192 × 2049) and the filters
  (4096 × 2049) to 2176 columns with zeros, changes their float format, and on a 16 × 8 grid multiplies a block of 512
  rows of the one with a block of 512 rows of the other over all 2176 columns into a zero accumulator. The reference
  contracts the two arguments' column axes directly. On the extended reals the change of format is the identity, a
  product into a zero accumulator and the host's contraction are both the plain sum of products, and the 127 added
  columns contribute products of two zeros; so both programs end with entry (r, c) of the result at the sum over the
  2049 columns k of x[r, k] · f[c, k] (`RowDot.energies`). Only commutativity and associativity of the sum and
  0 · 0 = 0 are used: the proof never needs the inputs to be finite. The third argument is read by neither program.

  The modules: RowDot (the function, and that zero columns add nothing), KernelBlock (one grid point's arithmetic at
  an entry), KernelArray (the blocks tile the result), KernelHost (the widened arrays the region finds), KernelValue
  (the kernel's run ends at the function), RefValue (the reference's term is the function). The three frames are the
  generated ones; the idealization rewrote nothing, so that conjunct is `True`.
-/
import proofs.«111513_j77386720739464_1_alg».proof.Defs
import proofs.«111513_j77386720739464_1_alg».proof.Proof.Gen.Kernel
import proofs.«111513_j77386720739464_1_alg».proof.Proof.Gen.Kernel.Skeleton
import proofs.«111513_j77386720739464_1_alg».proof.Proof.Gen.Kernel.Launch
import proofs.«111513_j77386720739464_1_alg».proof.Proof.Gen.Kernel.Points
import proofs.«111513_j77386720739464_1_alg».proof.Proof.Gen.Kernel.Frame
import proofs.«111513_j77386720739464_1_alg».proof.Proof.Gen.KernelIdeal
import proofs.«111513_j77386720739464_1_alg».proof.Proof.Gen.KernelIdeal.Skeleton
import proofs.«111513_j77386720739464_1_alg».proof.Proof.Gen.KernelIdeal.Launch
import proofs.«111513_j77386720739464_1_alg».proof.Proof.Gen.KernelIdeal.Points
import proofs.«111513_j77386720739464_1_alg».proof.Proof.Gen.KernelIdeal.Frame
import proofs.«111513_j77386720739464_1_alg».proof.Proof.Gen.ReferenceIdeal
import proofs.«111513_j77386720739464_1_alg».proof.Proof.Gen.Pre_finite_inputs
import proofs.«111513_j77386720739464_1_alg».proof.Proof.Gen.KernelIdeal.Value
import proofs.«111513_j77386720739464_1_alg».proof.Proof.Gen.ReferenceIdeal.Run
import proofs.«111513_j77386720739464_1_alg».proof.Proof.Gen.ReferenceIdeal.Read
import proofs.«111513_j77386720739464_1_alg».proof.Proof.KernelValue
import proofs.«111513_j77386720739464_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at `energies` of the first two
    arguments: the kernel by its run read block by block, the reference by its contraction read at an entry. -/
theorem algebraic : Cert.algebraic_KernelIdeal_ReferenceIdeal := by
  intro m ρ m' ρ' _ hagree
  refine ⟨fun c => Cert.RowDot.energies
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
